-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x28x28 : Shape := ⟨4, ![64, 256, 28, 28]⟩
abbrev S16x256 : Shape := ⟨2, ![16, 256]⟩
abbrev S256x16 : Shape := ⟨2, ![256, 16]⟩
abbrev S_ : Shape := ⟨0, ![]⟩

class Facts : Prop where
  bcast_S_S64x256x28x28 : S_.BroadcastsInDim S64x256x28x28 (![] : Fin 0 → Fin S64x256x28x28.rank)
  reducesTo_S64x256x28x28_S_d0_1_2_3 : S64x256x28x28.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S64x256x28x28 .f32) (main_arg1 : FVec F S16x256 .f32) (main_arg2 : FVec F S256x16 .f32) : IVec S_ 1 :=
  let main_v0 : FVec F S64x256x28x28 .f32 := Host.absf main_arg0
  let main_cst : FVec F S_ .f32 := constant S_ .f32 0x7F800000#32
  let main_v1 : FVec F S64x256x28x28 .f32 := broadcastInDim S64x256x28x28 ![] bcast_S_S64x256x28x28 main_cst
  let main_v2 : IVec S64x256x28x28 1 := cmpf .olt main_v0 main_v1
  let main_c : IVec S_ 1 := constantI S_ 1 1#1
  let main_v3 : IVec S_ 1 := (fun x v => Host.reduce IntOp.andi x v reducesTo_S64x256x28x28_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S64x256x28x28 : Shape := ⟨4, ![64, 256, 28, 28]⟩
abbrev S16x256 : Shape := ⟨2, ![16, 256]⟩
abbrev S256x16 : Shape := ⟨2, ![256, 16]⟩
abbrev S28x28x64x256 : Shape := ⟨4, ![28, 28, 64, 256]⟩
abbrev S28x28x8x256 : Shape := ⟨4, ![28, 28, 8, 256]⟩
abbrev S8x256 : Shape := ⟨2, ![8, 256]⟩
abbrev S16x16 : Shape := ⟨2, ![16, 16]⟩
abbrev S8x16 : Shape := ⟨2, ![8, 16]⟩
abbrev S1x1x8x256 : Shape := ⟨4, ![1, 1, 8, 256]⟩

abbrev nBuf : Space → Nat
  | .hbm => 8
  | .vmem => 6
  | .smem => 0
  | _ => 0

abbrev bufTy : (tb : Table) → Fin (tcTables nBuf tb) → BufTy
  | .hbm, ⟨0, _⟩ => ⟨S64x256x28x28, .f32⟩
  | .hbm, ⟨1, _⟩ => ⟨S16x256, .f32⟩
  | .hbm, ⟨2, _⟩ => ⟨S256x16, .f32⟩
  | .hbm, ⟨3, _⟩ => ⟨S256x16, .f32⟩
  | .hbm, ⟨4, _⟩ => ⟨S16x256, .f32⟩
  | .hbm, ⟨5, _⟩ => ⟨S28x28x64x256, .f32⟩
  | .hbm, ⟨6, _⟩ => ⟨S28x28x64x256, .f32⟩
  | .hbm, ⟨7, _⟩ => ⟨S64x256x28x28, .f32⟩
  | .local _ .vmem, ⟨0, _⟩ => ⟨S28x28x8x256, .f32⟩
  | .local _ .vmem, ⟨1, _⟩ => ⟨S28x28x8x256, .f32⟩
  | .local _ .vmem, ⟨2, _⟩ => ⟨S256x16, .f32⟩
  | .local _ .vmem, ⟨3, _⟩ => ⟨S16x256, .f32⟩
  | .local _ .vmem, ⟨4, _⟩ => ⟨S28x28x8x256, .f32⟩
  | .local _ .vmem, ⟨5, _⟩ => ⟨S28x28x8x256, .f32⟩
  | _, _ => ⟨S64x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S28x28x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S28x28x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x256_S256x16_1_0 : S16x256.Transposes [1, 0] S256x16
  transposes_S256x16_S16x256_1_0 : S256x16.Transposes [1, 0] S16x256
  transposes_S64x256x28x28_S28x28x64x256_2_3_0_1 : S64x256x28x28.Transposes [2, 3, 0, 1] S28x28x64x256
  inb_S28x28x8x256_S28x28x8x256_0_0_0_0 : ∀ a, (![0, 0, 0, 0] : Fin 4 → Nat) a + S28x28x8x256.size a ≤ S28x28x8x256.size a
  h_S28x28x8x256 : 0 < S28x28x8x256.numel
  shapeCasts_S28x28x8x256_S28x28x8x256 : S28x28x8x256.ShapeCasts S28x28x8x256
  reduces_S28x28x8x256_S8x256 : S28x28x8x256.Reduces [0, 1] S8x256
  concatenates_S8x256_S8x256_S16x256_d0 : Shape.Concatenates [S8x256, S8x256] S16x256 0
  inb_S256x16_S256x16_0_0 : ∀ a, (![0, 0] : Fin 2 → Nat) a + S256x16.size a ≤ S256x16.size a
  h_S256x16 : 0 < S256x16.numel
  shapeCasts_S256x16_S256x16 : S256x16.ShapeCasts S256x16
  slices_S16x16_o0_0_S8x16 : S16x16.Slices ![0, 0] S8x16
  slices_S16x16_o8_0_S8x16 : S16x16.Slices ![8, 0] S8x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S8x256_S1x1x8x256 : S8x256.ShapeCasts S1x1x8x256
  broadcasts_S1x1x8x256_S28x28x8x256 : S1x1x8x256.Broadcasts S28x28x8x256
  transposes_S28x28x64x256_S64x256x28x28_2_3_0_1 : S28x28x64x256.Transposes [2, 3, 0, 1] S64x256x28x28
  dot_S16x256_S256x16_S16x16_1_0_0_1_n_n_wf : DotDims.WF S16x256 S256x16 S16x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x28x8x256.size a ≤ S28x28x64x256.size a
  hwx0_0 : ∀ i : grid0.Coords, EltTy.bits .f32 = 32 ∨ (Rect.block (s := S28x28x64x256) S28x28x8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S28x28x8x256.size a ≤ S28x28x64x256.size a
  hwx0_3 : ∀ i : grid0.Coords, EltTy.bits .f32 = 32 ∨ (Rect.block (s := S28x28x64x256) S28x28x8x256.size (cc0_transform_3 i) (hinb0_3 i)).WholeWords (EltTy.packing .f32)

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v2) S28x28x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S28x28x8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x28x28 : Shape := ⟨4, ![64, 256, 28, 28]⟩
abbrev S16x256 : Shape := ⟨2, ![16, 256]⟩
abbrev S256x16 : Shape := ⟨2, ![256, 16]⟩
abbrev S64x256x784 : Shape := ⟨3, ![64, 256, 784]⟩
abbrev S8x256x784 : Shape := ⟨3, ![8, 256, 784]⟩
abbrev S8x256 : Shape := ⟨2, ![8, 256]⟩
abbrev S8x16 : Shape := ⟨2, ![8, 16]⟩
abbrev S8x256x1 : Shape := ⟨3, ![8, 256, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x256x28x28, .f32⟩
  | .hbm, ⟨1, _⟩ => ⟨S16x256, .f32⟩
  | .hbm, ⟨2, _⟩ => ⟨S256x16, .f32⟩
  | .hbm, ⟨3, _⟩ => ⟨S64x256x784, .f32⟩
  | .hbm, ⟨4, _⟩ => ⟨S256x16, .f32⟩
  | .hbm, ⟨5, _⟩ => ⟨S16x256, .f32⟩
  | .hbm, ⟨6, _⟩ => ⟨S64x256x784, .f32⟩
  | .hbm, ⟨7, _⟩ => ⟨S64x256x28x28, .f32⟩
  | .local _ .vmem, ⟨0, _⟩ => ⟨S8x256x784, .f32⟩
  | .local _ .vmem, ⟨1, _⟩ => ⟨S8x256x784, .f32⟩
  | .local _ .vmem, ⟨2, _⟩ => ⟨S256x16, .f32⟩
  | .local _ .vmem, ⟨3, _⟩ => ⟨S16x256, .f32⟩
  | .local _ .vmem, ⟨4, _⟩ => ⟨S8x256x784, .f32⟩
  | .local _ .vmem, ⟨5, _⟩ => ⟨S8x256x784, .f32⟩
  | _, _ => ⟨S64x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x28x28_S64x256x784 : S64x256x28x28.ShapeCasts S64x256x784
  transposes_S16x256_S256x16_1_0 : S16x256.Transposes [1, 0] S256x16
  transposes_S256x16_S16x256_1_0 : S256x16.Transposes [1, 0] S16x256
  inb_S8x256x784_S8x256x784_0_0_0 : ∀ a, (![0, 0, 0] : Fin 3 → Nat) a + S8x256x784.size a ≤ S8x256x784.size a
  h_S8x256x784 : 0 < S8x256x784.numel
  shapeCasts_S8x256x784_S8x256x784 : S8x256x784.ShapeCasts S8x256x784
  reduces_S8x256x784_S8x256 : S8x256x784.Reduces [2] S8x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S8x256_S8x256x1 : S8x256.ShapeCasts S8x256x1
  broadcasts_S8x256x1_S8x256x784 : S8x256x1.Broadcasts S8x256x784
  shapeCasts_S64x256x784_S64x256x28x28 : S64x256x784.ShapeCasts S64x256x28x28
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x784.size a ≤ S64x256x784.size a
  hwx0_0 : ∀ i : grid0.Coords, EltTy.bits .f32 = 32 ∨ (Rect.block (s := S64x256x784) S8x256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x784.size a ≤ S64x256x784.size a
  hwx0_3 : ∀ i : grid0.Coords, EltTy.bits .f32 = 32 ∨ (Rect.block (s := S64x256x784) S8x256x784.size (cc0_transform_3 i) (hinb0_3 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S8x256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x256x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPool.lean ====
/-
  Pooling over index sets, in two spellings.

  A reduction of a rank-4 array over its two leading axes keeps, at the pair (b, c) of trailing coordinates, exactly the
  indices (h, w, b, c): the set of indices that drop to (b, c) is the injective image of the pairs (h, w). So a sum
  over that set is a sum over the pairs, and a fold of any commutative and associative operation over it is a fold over
  the pairs.

  A reduction over one axis of extent m · n, whose coordinate q stands for the pair (q / n, q % n) — the pair (a, b)
  sits at n · a + b —, runs over the same pairs: the division with remainder is a bijection between the coordinates below m · n and the pairs, so the
  sum, and the fold, over q of a function of (q / n, q % n) is the sum, or fold, over the pairs.
-/
import Idealize.ShloMosaic.PureOps.Ideal
import Idealize.ShloMosaic.PureOps.Reduce
import Idealize.ShloMosaic.Lib.ValueIdx

open scoped BigOperators

namespace Idealize.ShloMosaic.Pool

open Idealize.ShloMosaic Idealize.ShloMosaic.ValueIdx

section LeadingAxes

variable {n0 n1 n2 n3 : Nat}

/-- The index (h, w, b, c) from the pair (h, w), at fixed trailing coordinates. -/
abbrev lead (b : Fin n2) (c : Fin n3) (p : Fin n0 × Fin n1) : (⟨4, ![n0, n1, n2, n3]⟩ : Shape).Idx := ix4 p.1 p.2 b c

theorem kept_lead : (⟨4, ![n0, n1, n2, n3]⟩ : Shape).kept [0, 1] = [2, 3] := rfl

theorem drop_lead_val0 (h : (⟨4, ![n0, n1, n2, n3]⟩ : Shape).Reduces [0, 1] ⟨2, ![n2, n3]⟩)
    (i : (⟨4, ![n0, n1, n2, n3]⟩ : Shape).Idx) : (h.drop i 0).val = (i 2).val := rfl

theorem drop_lead_val1 (h : (⟨4, ![n0, n1, n2, n3]⟩ : Shape).Reduces [0, 1] ⟨2, ![n2, n3]⟩)
    (i : (⟨4, ![n0, n1, n2, n3]⟩ : Shape).Idx) : (h.drop i 1).val = (i 3).val := rfl

theorem lead_injective (b : Fin n2) (c : Fin n3) : Function.Injective (lead (n0 := n0) (n1 := n1) b c) := by
  intro p q e
  have e0 : p.1 = q.1 := congrFun e 0
  have e1 : p.2 = q.2 := congrFun e 1
  exact Prod.ext e0 e1

/-- The indices a reduction over the two leading axes sends to (b, c) are the indices (h, w, b, c). -/
theorem filter_drop_lead (h : (⟨4, ![n0, n1, n2, n3]⟩ : Shape).Reduces [0, 1] ⟨2, ![n2, n3]⟩) (b : Fin n2) (c : Fin n3) :
    (Finset.univ.filter fun i => h.drop i = ix2 b c) = Finset.univ.image (lead (n0 := n0) (n1 := n1) b c) := by
  ext i
  simp only [Finset.mem_filter, Finset.mem_univ, true_and, Finset.mem_image]
  constructor
  · intro hi
    refine ⟨(i 0, i 1), ?_⟩
    have hb : (i 2).val = b.val := by
      rw [← drop_lead_val0 h i, hi]; rfl
    have hc : (i 3).val = c.val := by
      rw [← drop_lead_val1 h i, hi]; rfl
    funext a
    match a with
    | ⟨0, _⟩ => rfl
    | ⟨1, _⟩ => rfl
    | ⟨2, _⟩ => exact Fin.ext hb.symm
    | ⟨3, _⟩ => exact Fin.ext hc.symm
  · rintro ⟨p, rfl⟩
    funext a
    apply Fin.ext
    match a with
    | ⟨0, _⟩ => exact drop_lead_val0 h _
    | ⟨1, _⟩ => exact drop_lead_val1 h _

/-- A sum over the indices dropping to (b, c) is the sum over the pairs (h, w). -/
theorem sum_filter_drop_lead {α : Type} [AddCommMonoid α] (h : (⟨4, ![n0, n1, n2, n3]⟩ : Shape).Reduces [0, 1] ⟨2, ![n2, n3]⟩)
    (x : (⟨4, ![n0, n1, n2, n3]⟩ : Shape).Idx → α) (b : Fin n2) (c : Fin n3) :
    ∑ i ∈ Finset.univ.filter (fun i => h.drop i = ix2 b c), x i = ∑ p : Fin n0 × Fin n1, x (ix4 p.1 p.2 b c) := by
  rw [filter_drop_lead h b c, Finset.sum_image fun p _ q _ e => lead_injective b c e]

/-- A fold over the indices dropping to (b, c) is the fold over the pairs (h, w). -/
theorem fold_filter_drop_lead {α : Type} (op : α → α → α) [Std.Commutative op] [Std.Associative op]
    (h : (⟨4, ![n0, n1, n2, n3]⟩ : Shape).Reduces [0, 1] ⟨2, ![n2, n3]⟩) (init : α)
    (x : (⟨4, ![n0, n1, n2, n3]⟩ : Shape).Idx → α) (b : Fin n2) (c : Fin n3) :
    (Finset.univ.filter fun i => h.drop i = ix2 b c).fold op init x
      = (Finset.univ : Finset (Fin n0 × Fin n1)).fold op init fun p => x (ix4 p.1 p.2 b c) := by
  rw [filter_drop_lead h b c, Finset.fold_image fun p _ q _ e => lead_injective b c e]
  rfl

end LeadingAxes

section Flattened

variable {m n : Nat}

/-- The pair (q / n, q % n) of a coordinate below m · n. -/
def split (q : Fin (m * n)) : Fin m × Fin n := finProdFinEquiv.symm q

theorem split_fst_val (q : Fin (m * n)) : (split q).1.val = q.val / n := by
  simp [split, finProdFinEquiv, Fin.divNat]

theorem split_snd_val (q : Fin (m * n)) : (split q).2.val = q.val % n := by
  simp [split, finProdFinEquiv, Fin.modNat]

/-- The coordinate n · a + b of a pair (a, b). -/
def join (p : Fin m × Fin n) : Fin (m * n) := finProdFinEquiv p

theorem join_val (p : Fin m × Fin n) : (join p).val = p.2.val + n * p.1.val := rfl

theorem split_join (p : Fin m × Fin n) : split (join p) = p := finProdFinEquiv.symm_apply_apply p

/-- A sum over the flattened coordinate of a function of its pair is the sum over the pairs. -/
theorem sum_split {α : Type} [AddCommMonoid α] (g : Fin m × Fin n → α) : ∑ q : Fin (m * n), g (split q) = ∑ p, g p :=
  Equiv.sum_comp finProdFinEquiv.symm g

/-- A fold over the flattened coordinate of a function of its pair is the fold over the pairs. -/
theorem fold_split {α : Type} (op : α → α → α) [Std.Commutative op] [Std.Associative op] (init : α) (g : Fin m × Fin n → α) :
    (Finset.univ : Finset (Fin (m * n))).fold op init (fun q => g (split q)) = (Finset.univ : Finset (Fin m × Fin n)).fold op init g := by
  rw [← Finset.image_univ_equiv (finProdFinEquiv (m := m) (n := n)).symm,
    Finset.fold_image fun p _ q _ e => (finProdFinEquiv (m := m) (n := n)).symm.injective e]
  rfl

end Flattened

end Idealize.ShloMosaic.Pool
-- ==== Proof.Spec.lean ====
/-
  Channel attention, as one function of the three argument arrays.

  For an input x of shape [64, 256, 28, 28] and weights w1 [16, 256], w2 [256, 16]: each image B and channel k is pooled
  over its 28 × 28 positions twice — the sum of the positions scaled by the literal that stands for 1/784, and their
  maximum starting from the literal that stands for −∞ —; both pooled rows pass through the same two-layer map (the
  first layer w1 followed by a maximum with zero, the two hidden rows added, the second layer w2); the logistic
  function of the result is the gate of (B, c), and every position of x[B, c] is multiplied by it.

  The literals are kept as the bit patterns the programs print: both programs print the same ones, so nothing here
  depends on their values.
-/
import Idealize.ShloMosaic.PureOps.Ideal
import Idealize.ShloMosaic.Lib.ValueIdx
import proofs.«119438_g2000309318738597_pallasbulk_741_4_alg».proof.Proof.LibPool

open scoped BigOperators

noncomputable section

namespace Cert.Spec

open Idealize.ShloMosaic Idealize.ShloMosaic.ValueIdx

/-- The mean of a family as the programs take it: the sum times the literal for 1/784. -/
def avgPool {ι : Type} [Fintype ι] (f : ι → EReal) : EReal := (∑ p, f p) * Ideal.ofBits .f32 0x3AA72F05#32

/-- The maximum of a family, from the literal for −∞. -/
def maxPool {ι : Type} [Fintype ι] (f : ι → EReal) : EReal :=
  (Finset.univ : Finset ι).fold max (Ideal.ofBits .f32 0xFF800000#32) f

/-- The gate of channel c from one image's pooled rows: av and mx over the 256 channels, a the first layer
    (channel k to hidden unit j), bm the second (hidden unit j to channel c). -/
def gate (av mx : Fin 256 → EReal) (a : Fin 256 → Fin 16 → EReal) (bm : Fin 16 → Fin 256 → EReal) (c : Fin 256) : EReal :=
  Ideal.logistic (∑ j : Fin 16,
    (max (∑ k : Fin 256, av k * a k j) (Ideal.ofBits .f32 0x00000000#32)
      + max (∑ k : Fin 256, mx k * a k j) (Ideal.ofBits .f32 0x00000000#32)) * bm j c)

/-- One element scaled by its gate: the element v, its image's positions pos (channel k, position p), the two layers and
    the element's channel c. -/
def scaled {ι : Type} [Fintype ι] (v : EReal) (pos : Fin 256 → ι → EReal) (a : Fin 256 → Fin 16 → EReal)
    (bm : Fin 16 → Fin 256 → EReal) (c : Fin 256) : EReal :=
  v * gate (fun k => avgPool (pos k)) (fun k => maxPool (pos k)) a bm c

theorem scaled_congr {ι : Type} [Fintype ι] {v v' : EReal} {pos pos' : Fin 256 → ι → EReal} {a a' : Fin 256 → Fin 16 → EReal}
    {bm bm' : Fin 16 → Fin 256 → EReal} (c : Fin 256) (hv : v = v') (hp : pos = pos') (ha : a = a') (hb : bm = bm') :
    scaled v pos a bm c = scaled v' pos' a' bm' c := by
  subst hv hp ha hb; rfl

/-- Pooling over the flattened positions q, each standing for the pair (q / 28, q % 28), is pooling over the pairs. -/
theorem scaled_flat (v : EReal) (pos : Fin 256 → Fin 28 × Fin 28 → EReal) (a : Fin 256 → Fin 16 → EReal)
    (bm : Fin 16 → Fin 256 → EReal) (c : Fin 256) :
    scaled v (fun k (q : Fin 784) => pos k (Pool.split (m := 28) (n := 28) q)) a bm c = scaled v pos a bm c := by
  have hA : (fun k => avgPool fun q : Fin 784 => pos k (Pool.split (m := 28) (n := 28) q)) = fun k => avgPool (pos k) :=
    funext fun k => congrArg (· * Ideal.ofBits .f32 0x3AA72F05#32) (Pool.sum_split (m := 28) (n := 28) (pos k))
  have hM : (fun k => maxPool fun q : Fin 784 => pos k (Pool.split (m := 28) (n := 28) q)) = fun k => maxPool (pos k) :=
    funext fun k => Pool.fold_split (m := 28) (n := 28) max _ (pos k)
  exact congrArg₂ (fun A M => v * gate A M a bm c) hA hM

/-- The result array: x[B, c, h, w] times the gate of (B, c). -/
def G (x : (⟨4, ![64, 256, 28, 28]⟩ : Shape).Idx → EReal) (w1 : (⟨2, ![16, 256]⟩ : Shape).Idx → EReal)
    (w2 : (⟨2, ![256, 16]⟩ : Shape).Idx → EReal) : (⟨4, ![64, 256, 28, 28]⟩ : Shape).Idx → EReal := fun i =>
  scaled (x i) (fun k (p : Fin 28 × Fin 28) => x (ix4 (i 0 : Fin 64) k p.1 p.2))
    (fun k j => w1 (ix2 j k)) (fun j c => w2 (ix2 c j)) (i 1 : Fin 256)

end Cert.Spec

end
-- ==== Proof.KPay.lean ====
/-
  What the kernel's body computes for one tile of eight images, element by element.

  The body holds a tile x0 of shape [28, 28, 8, 256] (position, position, image, channel), the first layer x1 [256, 16]
  and the second layer x2 [16, 256]. It sums and maximises x0 over the two leading axes, stacks the eight rows of scaled
  sums on top of the eight rows of maxima, multiplies the sixteen rows by x1 in one product, takes the maximum with
  zero, adds row b to row b + 8, multiplies by x2, applies the logistic function and scales every position. Row b of
  the stacked product is the product of row b of the sums; row b + 8 is the product of row b of the maxima. So the
  element (h, w, b, c) is x0 (h, w, b, c) times the gate of (b, c) computed from the tile's own pooled rows.
-/
import proofs.«119438_g2000309318738597_pallasbulk_741_4_alg».proof.Proof.Gen.KernelIdeal.Skeleton
import proofs.«119438_g2000309318738597_pallasbulk_741_4_alg».proof.Proof.LibPool
import proofs.«119438_g2000309318738597_pallasbulk_741_4_alg».proof.Proof.Spec
import Idealize.ShloMosaic.Lib.Pipeline.Value
import Idealize.ShloMosaic.Lib.ValueIdx
import Idealize.ShloMosaic.PureOps.Ideal.Laws

open scoped BigOperators

noncomputable section

namespace Cert.KernelIdeal.Pay

open Cert.KernelIdeal Cert.KernelIdeal.Gen Idealize.ShloMosaic Idealize.ShloMosaic.ValueIdx

/-! ## The two pooled rows -/

/-- The sum over the two leading axes, at (b, c), is the sum over the positions. -/
theorem sum_positions (v : FVec Ideal S28x28x8x256 .f32) (h : S28x28x8x256.Reduces [0, 1] S8x256) (hφ : FKind.Formats .f32)
    (hacc : (0x00000000#32 : BitVec 32) = 0x00000000#32) (b : Fin 8) (c : Fin 256) :
    multiReduction .add [0, 1] S8x256 v 0x00000000#32 h hφ hacc (ix2 b c) = ∑ p : Fin 28 × Fin 28, v (ix4 p.1 p.2 b c) :=
  Pool.sum_filter_drop_lead h v b c

/-- The maximum over the two leading axes, at (b, c), is the maximum over the positions. -/
theorem max_positions (v : FVec Ideal S28x28x8x256 .f32) (h : S28x28x8x256.Reduces [0, 1] S8x256) (hφ : FKind.Formats .f32)
    (hacc : (0xFF800000#32 : BitVec 32) = 0xFF800000#32) (b : Fin 8) (c : Fin 256) :
    multiReduction .maximumf [0, 1] S8x256 v 0xFF800000#32 h hφ hacc (ix2 b c)
      = Cert.Spec.maxPool fun p : Fin 28 × Fin 28 => v (ix4 p.1 p.2 b c) := by
  refine (multiReduction_maximumf_eq_fold v 0xFF800000#32 h hφ hacc (ix2 b c)).trans ?_
  exact Pool.fold_filter_drop_lead _ h _ v b c

/-! ## The two products -/

abbrev D₁ := dot_S16x256_S256x16_S16x16_1_0_0_1_n_n
abbrev D₂ := dot_S8x16_S16x256_S8x256_1_0_0_1_n_n

theorem lhs₁_0 (j : S16x16.Idx) (k : D₁.contr.Idx) : (D₁.lhsIdx j k 0 : ℕ) = j 0 := by
  simp [DotDims.lhsIdx, D₁, dot_S16x256_S256x16_S16x16_1_0_0_1_n_n]; rfl
theorem lhs₁_1 (j : S16x16.Idx) (k : D₁.contr.Idx) : (D₁.lhsIdx j k 1 : ℕ) = k ⟨0, by decide⟩ := by
  simp [DotDims.lhsIdx, D₁, dot_S16x256_S256x16_S16x16_1_0_0_1_n_n]; rfl
theorem rhs₁_0 (j : S16x16.Idx) (k : D₁.contr.Idx) : (D₁.rhsIdx j k 0 : ℕ) = k ⟨0, by decide⟩ := by
  simp [DotDims.rhsIdx, D₁, dot_S16x256_S256x16_S16x16_1_0_0_1_n_n]; rfl
theorem rhs₁_1 (j : S16x16.Idx) (k : D₁.contr.Idx) : (D₁.rhsIdx j k 1 : ℕ) = j 1 := by
  simp [DotDims.rhsIdx, D₁, dot_S16x256_S256x16_S16x16_1_0_0_1_n_n]; rfl

theorem lhs₂_0 (j : S8x256.Idx) (k : D₂.contr.Idx) : (D₂.lhsIdx j k 0 : ℕ) = j 0 := by
  simp [DotDims.lhsIdx, D₂, dot_S8x16_S16x256_S8x256_1_0_0_1_n_n]; rfl
theorem lhs₂_1 (j : S8x256.Idx) (k : D₂.contr.Idx) : (D₂.lhsIdx j k 1 : ℕ) = k ⟨0, by decide⟩ := by
  simp [DotDims.lhsIdx, D₂, dot_S8x16_S16x256_S8x256_1_0_0_1_n_n]; rfl
theorem rhs₂_0 (j : S8x256.Idx) (k : D₂.contr.Idx) : (D₂.rhsIdx j k 0 : ℕ) = k ⟨0, by decide⟩ := by
  simp [DotDims.rhsIdx, D₂, dot_S8x16_S16x256_S8x256_1_0_0_1_n_n]; rfl
theorem rhs₂_1 (j : S8x256.Idx) (k : D₂.contr.Idx) : (D₂.rhsIdx j k 1 : ℕ) = j 1 := by
  simp [DotDims.rhsIdx, D₂, dot_S8x16_S16x256_S8x256_1_0_0_1_n_n]; rfl

/-- The first product into a zero accumulator, at (r, j): the sum over the 256 channels. -/
theorem product₁_apply (l : FVec Ideal S16x256 .f32) (r : FVec Ideal S256x16 .f32) (i : Fin 16) (j : Fin 16) :
    matmul D₁ none l r (constant S16x16 .f32 0x00000000#32) (ix2 i j) = ∑ k : Fin 256, l (ix2 i k) * r (ix2 k j) := by
  simp only [matmul]
  rw [Ideal.matmul_constant_zero_apply, ← Equiv.sum_comp (contrEquiv1 D₁ 256 rfl rfl).symm]
  refine Finset.sum_congr rfl fun k _ => ?_
  congr 2
  · funext a; apply Fin.ext
    match a with
    | ⟨0, _⟩ => exact lhs₁_0 _ _
    | ⟨1, _⟩ => exact (lhs₁_1 _ _).trans (contrEquiv1_symm_val D₁ 256 rfl rfl k)
  · funext a; apply Fin.ext
    match a with
    | ⟨0, _⟩ => exact (rhs₁_0 _ _).trans (contrEquiv1_symm_val D₁ 256 rfl rfl k)
    | ⟨1, _⟩ => exact rhs₁_1 _ _

/-- The second product into a zero accumulator, at (b, c): the sum over the 16 hidden units. -/
theorem product₂_apply (l : FVec Ideal S8x16 .f32) (r : FVec Ideal S16x256 .f32) (b : Fin 8) (c : Fin 256) :
    matmul D₂ none l r (constant S8x256 .f32 0x00000000#32) (ix2 b c) = ∑ j : Fin 16, l (ix2 b j) * r (ix2 j c) := by
  simp only [matmul]
  rw [Ideal.matmul_constant_zero_apply, ← Equiv.sum_comp (contrEquiv1 D₂ 16 rfl rfl).symm]
  refine Finset.sum_congr rfl fun k _ => ?_
  congr 2
  · funext a; apply Fin.ext
    match a with
    | ⟨0, _⟩ => exact lhs₂_0 _ _
    | ⟨1, _⟩ => exact (lhs₂_1 _ _).trans (contrEquiv1_symm_val D₂ 16 rfl rfl k)
  · funext a; apply Fin.ext
    match a with
    | ⟨0, _⟩ => exact (rhs₂_0 _ _).trans (contrEquiv1_symm_val D₂ 16 rfl rfl k)
    | ⟨1, _⟩ => exact rhs₂_1 _ _

/-! ## The stacked rows, the two halves, and the gate laid over the positions -/

/-- Row b of the upper half. -/
abbrev lo (b : Fin 8) : Fin 16 := ⟨b.val, by omega⟩
/-- Row b of the lower half. -/
abbrev hi (b : Fin 8) : Fin 16 := ⟨b.val + 8, by omega⟩

/-- Row b of the stack is row b of its first piece. -/
theorem stack_lo (u v : FVec Ideal S8x256 .f32) (h : Shape.Concatenates [S8x256, S8x256] S16x256 0) (b : Fin 8) (k : Fin 256) :
    concatenate S16x256 0 [⟨S8x256, u⟩, ⟨S8x256, v⟩] h (ix2 (lo b) k) = u (ix2 b k) :=
  concatenate_pair_apply_left 0 u v h (ix2 (lo b) k) rfl (ix2 b k) fun a => by
    match a with
    | ⟨0, _⟩ => rfl
    | ⟨1, _⟩ => rfl

/-- Row b + 8 of the stack is row b of its second piece. -/
theorem stack_hi (u v : FVec Ideal S8x256 .f32) (h : Shape.Concatenates [S8x256, S8x256] S16x256 0) (b : Fin 8) (k : Fin 256) :
    concatenate S16x256 0 [⟨S8x256, u⟩, ⟨S8x256, v⟩] h (ix2 (hi b) k) = v (ix2 b k) :=
  concatenate_pair_apply_right 0 u v h (ix2 (hi b) k) rfl rfl (ix2 b k) (fun a ha => by
    match a with
    | ⟨0, _⟩ => exact absurd rfl ha
    | ⟨1, _⟩ => rfl) rfl

/-- The upper half of a sixteen-row matrix, at (b, j). -/
theorem upper_apply (v : FVec Ideal S16x16 .f32) (h : S16x16.Slices ![0, 0] S8x16) (b : Fin 8) (j : Fin 16) :
    extractStridedSlice S8x16 ![0, 0] v h (ix2 b j) = v (ix2 (lo b) j) :=
  extractStridedSlice_apply ![0, 0] v h (ix2 b j) (ix2 (lo b) j) fun a => by
    match a with
    | ⟨0, _⟩ => show b.val = 0 + b.val; omega
    | ⟨1, _⟩ => show j.val = 0 + j.val; omega

/-- The lower half, at (b, j). -/
theorem lower_apply (v : FVec Ideal S16x16 .f32) (h : S16x16.Slices ![8, 0] S8x16) (b : Fin 8) (j : Fin 16) :
    extractStridedSlice S8x16 ![8, 0] v h (ix2 b j) = v (ix2 (hi b) j) :=
  extractStridedSlice_apply ![8, 0] v h (ix2 b j) (ix2 (hi b) j) fun a => by
    match a with
    | ⟨0, _⟩ => show b.val + 8 = 8 + b.val; omega
    | ⟨1, _⟩ => show j.val = 0 + j.val; omega

/-- The gate matrix laid over every position: at (h, w, b, c) it is the matrix at (b, c). -/
theorem over_positions (v : FVec Ideal S8x256 .f32) (h₁ : S8x256.ShapeCasts S1x1x8x256) (h₂ : S1x1x8x256.Broadcasts S28x28x8x256)
    (h : Fin 28) (w : Fin 28) (b : Fin 8) (c : Fin 256) :
    broadcastTo S28x28x8x256 (shapeCast S1x1x8x256 v h₁) h₂ (ix4 h w b c) = v (ix2 b c) := by
  refine (broadcastTo_apply _ h₂ (ix4 h w b c) (ix4 (0 : Fin 1) (0 : Fin 1) b c) fun a => ?_).trans ?_
  · match a with
    | ⟨0, _⟩ => rfl
    | ⟨1, _⟩ => rfl
    | ⟨2, _⟩ => rfl
    | ⟨3, _⟩ => rfl
  · refine shapeCast_apply v h₁ _ (ix2 b c) ?_
    rw [Shape.rowMajor_val_two, Shape.rowMajor_val_four]
    show b.val * 256 + c.val = (((0 : ℕ) * 1 + 0) * 8 + b.val) * 256 + c.val
    omega

/-! ## The body's result at an element -/

/-- Element (h, w, b, c) of what the body stores: the tile's element times the gate of (b, c) from the tile's own
    pooled rows. -/
theorem body_apply (x0 : Vec Ideal S28x28x8x256 .f32) (x1 : Vec Ideal S256x16 .f32) (x2 : Vec Ideal S16x256 .f32)
    (h : Fin 28) (w : Fin 28) (b : Fin 8) (c : Fin 256) :
    k0_pay1 (F := Ideal) x0 x1 x2 (ix4 h w b c)
      = Cert.Spec.scaled (x0 (ix4 h w b c)) (fun k (p : Fin 28 × Fin 28) => x0 (ix4 p.1 p.2 b k))
          (fun k j => x1 (ix2 k j)) (fun j c' => x2 (ix2 j c')) c := by
  unfold k0_pay1
  simp only [shapeCast_self]
  rw [mulf_apply, over_positions]
  unfold Cert.Spec.scaled
  refine congrArg (x0 (ix4 h w b c) * ·) ?_
  show Ideal.logistic _ = _
  unfold Cert.Spec.gate
  refine congrArg Ideal.logistic ?_
  rw [product₂_apply]
  refine Finset.sum_congr rfl fun j _ => ?_
  refine congrArg (· * x2 (ix2 j c)) ?_
  rw [addf_apply, upper_apply, lower_apply, maximumf_apply, maximumf_apply, product₁_apply, product₁_apply]
  refine congrArg₂ (· + ·)
    (congrArg₂ max (Finset.sum_congr rfl fun k _ => congrArg (· * x1 (ix2 k j)) ?_) rfl)
    (congrArg₂ max (Finset.sum_congr rfl fun k _ => congrArg (· * x1 (ix2 k j)) ?_) rfl)
  · rw [stack_lo, mulf_apply, sum_positions, shapeCast_self]; rfl
  · rw [stack_hi, max_positions, shapeCast_self]

end Cert.KernelIdeal.Pay

end
-- ==== Proof.KValue.lean ====
/-
  The kernel's result array, from its eight tiles.

  The kernel works on the input re-laid as [28, 28, 64, 256] (position, position, image, channel). Grid point t holds the
  tile of images 8t … 8t + 7: its block of the re-laid input has block index (0, 0, t, 0), and so has its block of the
  output; the two weight matrices are held whole at every point. What point t writes back is therefore its block of ONE
  array: the re-laid input times the gate of each (image, channel), the gate computed from that image's own positions.
  The eight blocks cover the 64 images, so after the run the output array is that function; the transposition after
  the region puts it back in the input's layout, and the transpositions before it are undone index by index.
-/
import proofs.«119438_g2000309318738597_pallasbulk_741_4_alg».proof.Proof.Gen.KernelIdeal.Frame
import proofs.«119438_g2000309318738597_pallasbulk_741_4_alg».proof.Proof.KPay
import Idealize.ShloMosaic.Lib.Pipeline.Value
import Idealize.ShloMosaic.Lib.StableHlo.Run

set_option maxRecDepth 16384

open scoped BigOperators

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The printed index maps, decided over the eight points: the input's and the output's blocks move along the image
    axis with the point, the weights' blocks stay. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_3.index t (0 : Fin 4) = 0 ∧ win0_3.index t (1 : Fin 4) = 0 ∧ win0_3.index t (2 : Fin 4) = t.val ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Image b of tile t. -/
def row (t : Fin cfg0.N) (b : Fin 8) : Fin 64 :=
  ⟨8 * t.val + b.val, by have hN : cfg0.N = 8 := N_0; have := t.isLt; have := b.isLt; omega⟩

/-- The input tile at point t is the images 8t … 8t + 7 of the re-laid input. -/
theorem tile_apply (c : Dev nD) (t : Fin cfg0.N) (h w : Fin 28) (b : Fin 8) (k : Fin 256) :
    (iblk m c 0 t : Vec Ideal S28x28x8x256 .f32) (ix4 h w b k)
      = (V m c main_v2 : S28x28x64x256.Idx → EReal) (ix4 h w (row t b) k) := by
  obtain ⟨e0, e1, e2, e3, -⟩ := idx_facts t
  unfold iblk
  rw [View.read_apply]
  show V m c main_v2 _ = V m c main_v2 _
  congr 1
  funext a
  apply Fin.ext
  match a with
  | ⟨0, _⟩ => show win0_0.index t (0 : Fin 4) * 28 + 1 * h.val = h.val; omega
  | ⟨1, _⟩ => show win0_0.index t (1 : Fin 4) * 28 + 1 * w.val = w.val; omega
  | ⟨2, _⟩ => show win0_0.index t (2 : Fin 4) * 8 + 1 * b.val = 8 * t.val + b.val; omega
  | ⟨3, _⟩ => show win0_0.index t (3 : Fin 4) * 256 + 1 * k.val = k.val; omega

/-- The first layer's block at any point is the whole matrix. -/
theorem layer₁_apply (c : Dev nD) (t : Fin cfg0.N) (k : Fin 256) (j : Fin 16) :
    (iblk m c 1 t : Vec Ideal S256x16 .f32) (ix2 k j) = (V m c main_v0 : S256x16.Idx → EReal) (ix2 k j) := by
  obtain ⟨-, -, -, -, -, -, -, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 256 + 1 * k.val = k.val; omega
  | ⟨1, _⟩ => show win0_1.index t (1 : Fin 2) * 16 + 1 * j.val = j.val; omega

/-- The second layer's block at any point is the whole matrix. -/
theorem layer₂_apply (c : Dev nD) (t : Fin cfg0.N) (j : Fin 16) (k : Fin 256) :
    (iblk m c 2 t : Vec Ideal S16x256 .f32) (ix2 j k) = (V m c main_v1 : S16x256.Idx → EReal) (ix2 j k) := by
  obtain ⟨-, -, -, -, -, -, -, -, -, -, e0, e1⟩ := idx_facts t
  unfold iblk
  rw [View.read_apply]
  show V m c main_v1 _ = V m c main_v1 _
  congr 1
  funext a
  apply Fin.ext
  match a with
  | ⟨0, _⟩ => show win0_2.index t (0 : Fin 2) * 16 + 1 * j.val = j.val; omega
  | ⟨1, _⟩ => show win0_2.index t (1 : Fin 2) * 256 + 1 * k.val = k.val; omega

/-- The output's block at point t sits at the images 8t … 8t + 7. -/
theorem out_emb (t : Fin cfg0.N) (h w : Fin 28) (b : Fin 8) (k : Fin 256) :
    (((cfg0.win 3).blk t).view.emb (ix4 h w b k) : S28x28x64x256.Idx) = ix4 h w (row t b) k := by
  obtain ⟨-, -, -, -, e0, e1, e2, e3, -⟩ := idx_facts t
  funext a
  apply Fin.ext
  match a with
  | ⟨0, _⟩ => show win0_3.index t (0 : Fin 4) * 28 + 1 * h.val = h.val; omega
  | ⟨1, _⟩ => show win0_3.index t (1 : Fin 4) * 28 + 1 * w.val = w.val; omega
  | ⟨2, _⟩ => show win0_3.index t (2 : Fin 4) * 8 + 1 * b.val = 8 * t.val + b.val; omega
  | ⟨3, _⟩ => show win0_3.index t (3 : Fin 4) * 256 + 1 * k.val = k.val; omega

/-- The output array before the last transposition, as one function of the three arrays the region finds: the re-laid
    input xT, the first layer a and the second layer bm. Element (h, w, B, c) is xT there times the gate of (B, c), the
    gate pooled over image B's own positions. -/
def mid (xT : S28x28x64x256.Idx → EReal) (a : S256x16.Idx → EReal) (bm : S16x256.Idx → EReal) : S28x28x64x256.Idx → EReal := fun i =>
  Cert.Spec.scaled (xT i) (fun k (p : Fin 28 × Fin 28) => xT (ix4 p.1 p.2 (i 2 : Fin 64) k))
    (fun k j => a (ix2 k j)) (fun j c => bm (ix2 j c)) (i 3 : Fin 256)

/-- What point t writes back is block t of that one array. -/
theorem flushed_eq (c : Dev nD) (t : Fin cfg0.N) :
    (dats m 0 c).flushed 3 t = ((cfg0.win 3).blk t).view.read (Elt Ideal) (mid (V m c main_v2) (V m c main_v0) (V m c main_v1)) := by
  show (cfg0.win 3).cut (grid0.coords t) ((dats m 0 c).after 3 t) = _
  rw [after0_3]
  unfold out0_3
  rw [View.canon_unit_zero hz4]
  simp only [View.ld_unit_zero (S := S28x28x8x256) hz4, View.ld_unit_zero (S := S256x16) hz2, View.ld_unit_zero (S := S16x256) hz2]
  funext y
  obtain ⟨h, w, b, c', rfl⟩ : ∃ (h w : Fin 28) (b : Fin 8) (c' : Fin 256), y = ix4 h w b c' := ⟨y 0, y 1, y 2, y 3, eq_ix4 y⟩
  show k0_pay1 (iblk m c 0 t) (iblk m c 1 t) (iblk m c 2 t) (ix4 h w b c')
    = mid (V m c main_v2) (V m c main_v0) (V m c main_v1) (((cfg0.win 3).blk t).view.emb (ix4 h w b c'))
  rw [out_emb]
  refine (Pay.body_apply (iblk m c 0 t) (iblk m c 1 t) (iblk m c 2 t) h w b c').trans ?_
  exact Cert.Spec.scaled_congr c' (tile_apply m c t h w b c') (funext fun k => funext fun p => tile_apply m c t p.1 p.2 b k)
    (funext fun k => funext fun j => layer₁_apply m c t k j) (funext fun j => funext fun k => layer₂_apply m c t j k)

/-- An index of the output array is in point t's block iff each coordinate is in the block's range on its axis. -/
theorem mem_blk (t : Fin cfg0.N) (i : S28x28x64x256.Idx) :
    i ∈ ((cfg0.win 3).blk t).view.set ↔ ∀ a : Fin 4, win0_3.index t a * S28x28x8x256.size a ≤ (i a).val
      ∧ (i a).val < win0_3.index t a * S28x28x8x256.size a + S28x28x8x256.size a := by
  show i ∈ ((View.whole main_v3).slice (win0_3.rect t)).set ↔ _
  rw [View.set_slice_whole, Rect.mem_set_unit]
  exact Iff.rfl

/-- Every index of the output array is in the block of the point that holds its image. -/
theorem cover (i : S28x28x64x256.Idx) : ∃ t : Fin cfg0.N, (cfg0.win 3).flush t = true ∧ i ∈ ((cfg0.win 3).blk t).view.set := by
  have hN : cfg0.N = 8 := N_0
  have hi0 : (i 0).val < 28 := (i 0).isLt
  have hi1 : (i 1).val < 28 := (i 1).isLt
  have hi2 : (i 2).val < 64 := (i 2).isLt
  have hi3 : (i 3).val < 256 := (i 3).isLt
  have ht : (i 2).val / 8 < cfg0.N := by omega
  obtain ⟨-, -, -, -, e0, e1, e2, e3, -⟩ := idx_facts ⟨(i 2).val / 8, ht⟩
  have e2' : win0_3.index ⟨(i 2).val / 8, ht⟩ (2 : Fin 4) = (i 2).val / 8 := e2
  refine ⟨⟨(i 2).val / 8, ht⟩, flush0_3 _, ?_⟩
  rw [mem_blk]
  intro a
  match a with
  | ⟨0, _⟩ => show win0_3.index _ (0 : Fin 4) * 28 ≤ (i 0).val ∧ (i 0).val < win0_3.index _ (0 : Fin 4) * 28 + 28; omega
  | ⟨1, _⟩ => show win0_3.index _ (1 : Fin 4) * 28 ≤ (i 1).val ∧ (i 1).val < win0_3.index _ (1 : Fin 4) * 28 + 28; omega
  | ⟨2, _⟩ => show win0_3.index _ (2 : Fin 4) * 8 ≤ (i 2).val ∧ (i 2).val < win0_3.index _ (2 : Fin 4) * 8 + 8; omega
  | ⟨3, _⟩ => show win0_3.index _ (3 : Fin 4) * 256 ≤ (i 3).val ∧ (i 3).val < win0_3.index _ (3 : Fin 4) * 256 + 256; omega

/-- The output array after the eight points. -/
theorem final (c : Dev nD) : (dats m 0 c).arrAt 3 cfg0.N = mid (V m c main_v2) (V m c main_v0) (V m c main_v1) :=
  (dats m 0 c).arrAt_eq_of_cover 3 _ (fun t _ => flushed_eq m c t) cover

/-! ## Around the region -/

/-- The region finds the input re-laid: element (h, w, B, k) is x (B, k, h, w). -/
theorem entry_x (c : Dev nD) (h w : Fin 28) (B : Fin 64) (k : Fin 256) :
    (V m c main_v2 : S28x28x64x256.Idx → EReal) (ix4 h w B k)
      = (m ((c : Thread nD τ).loc main_arg0) : S64x256x28x28.Idx → EReal) (ix4 B k h w) := by
  have e : (V m c main_v2 : S28x28x64x256.Idx → EReal)
      = transpose S28x28x64x256 [2, 3, 0, 1] (m ((c : Thread nD τ).loc main_arg0)) transposes_S64x256x28x28_S28x28x64x256_2_3_0_1 := by
    show StableHlo.after hostOps0 (fun b => m (c, b)) (Proc.devRef .tc main_v2) = _
    after_results
  rw [e]
  exact transpose_apply _ _ _ _ (ix4 B k h w) fun b => by
    match b with
    | ⟨0, _⟩ => rfl
    | ⟨1, _⟩ => rfl
    | ⟨2, _⟩ => rfl
    | ⟨3, _⟩ => rfl

/-- It finds the first layer transposed: element (k, j) is w1 (j, k). -/
theorem entry_w₁ (c : Dev nD) (k : Fin 256) (j : Fin 16) :
    (V m c main_v0 : S256x16.Idx → EReal) (ix2 k j) = (m ((c : Thread nD τ).loc main_arg1) : S16x256.Idx → EReal) (ix2 j k) := by
  have e : (V m c main_v0 : S256x16.Idx → EReal)
      = transpose S256x16 [1, 0] (m ((c : Thread nD τ).loc main_arg1)) transposes_S16x256_S256x16_1_0 := by
    show StableHlo.after hostOps0 (fun b => m (c, b)) (Proc.devRef .tc main_v0) = _
    after_results
  rw [e]
  exact transpose_apply _ _ _ _ (ix2 j k) fun b => by
    match b with
    | ⟨0, _⟩ => rfl
    | ⟨1, _⟩ => rfl

/-- And the second layer transposed: element (j, k) is w2 (k, j). -/
theorem entry_w₂ (c : Dev nD) (j : Fin 16) (k : Fin 256) :
    (V m c main_v1 : S16x256.Idx → EReal) (ix2 j k) = (m ((c : Thread nD τ).loc main_arg2) : S256x16.Idx → EReal) (ix2 k j) := by
  have e : (V m c main_v1 : S16x256.Idx → EReal)
      = transpose S16x256 [1, 0] (m ((c : Thread nD τ).loc main_arg2)) transposes_S256x16_S16x256_1_0 := by
    show StableHlo.after hostOps0 (fun b => m (c, b)) (Proc.devRef .tc main_v1) = _
    after_results
  rw [e]
  exact transpose_apply _ _ _ _ (ix2 k j) fun b => by
    match b with
    | ⟨0, _⟩ => rfl
    | ⟨1, _⟩ => rfl

/-- The result buffer after the run: the output array transposed back. -/
theorem result_eq (c : Dev nD) :
    Pipeline.afterTail₀ cfgs (dats m) 0 (V0 m) [hostOps1] c main_v4
      = Cert.Spec.G (m ((c : Thread nD τ).loc main_arg0)) (m ((c : Thread nD τ).loc main_arg1)) (m ((c : Thread nD τ).loc main_arg2)) := by
  have e : Pipeline.afterTail₀ cfgs (dats m) 0 (V0 m) [hostOps1] c main_v4
      = transpose S64x256x28x28 [2, 3, 0, 1] ((dats m 0 c).arrAt 3 cfg0.N) transposes_S28x28x64x256_S64x256x28x28_2_3_0_1 := by
    unfold Pipeline.afterTail₀
    show StableHlo.after hostOps1 _ (Proc.devRef .tc main_v4) = _
    after_results
    exact congrArg (fun A => transpose S64x256x28x28 [2, 3, 0, 1] A transposes_S28x28x64x256_S64x256x28x28_2_3_0_1)
      (Pipeline.withArrays_arr spec0 launch0.win.arr_inj c (V0 m c) (fun w => (dats m 0 c).arrAt w (cfgs 0).N) 3)
  rw [e, final]
  funext i
  obtain ⟨B, c', h, w, rfl⟩ : ∃ (B : Fin 64) (c' : Fin 256) (h w : Fin 28), i = ix4 B c' h w := ⟨i 0, i 1, i 2, i 3, eq_ix4 i⟩
  refine (transpose_apply _ _ _ _ (ix4 h w B c') fun b => by
    match b with
    | ⟨0, _⟩ => rfl
    | ⟨1, _⟩ => rfl
    | ⟨2, _⟩ => rfl
    | ⟨3, _⟩ => rfl).trans ?_
  exact Cert.Spec.scaled_congr c' (entry_x m c h w B c') (funext fun k => funext fun p => entry_x m c p.1 p.2 B k)
    (funext fun k => funext fun j => entry_w₁ m c k j) (funext fun j => funext fun k => entry_w₂ m c j k)

/-- The run, read: the result buffer ends at the channel-attention function of the arguments, which end unchanged. -/
theorem run : θ_run defs (onTc (τ := τ) (main (F := Ideal))) ⟨m, fun _ => 0, ρ⟩ fun r => ∀ c : Dev nD,
      r.2.mem ((c.tc : Thread nD τ).loc main_v4)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.RPay.lean ====
/-
  What the reference's body computes for one tile of eight images, element by element.

  The body holds a tile x0 of shape [8, 256, 784] (image, channel, flattened position), the first layer x1 [256, 16] and
  the second layer x2 [16, 256]. It sums and maximises x0 over the last axis, multiplies each pooled matrix by x1, takes
  the maximum with zero, adds the two, multiplies by x2, applies the logistic function and scales every position. So
  the element (b, c, q) is x0 (b, c, q) times the gate of (b, c) computed from the tile's own pooled rows, the pooling
  running over the 784 flattened positions.
-/
import proofs.«119438_g2000309318738597_pallasbulk_741_4_alg».proof.Proof.Gen.ReferenceIdeal.Skeleton
import proofs.«119438_g2000309318738597_pallasbulk_741_4_alg».proof.Proof.LibPool
import proofs.«119438_g2000309318738597_pallasbulk_741_4_alg».proof.Proof.Spec
import Idealize.ShloMosaic.Lib.Pipeline.Value
import Idealize.ShloMosaic.Lib.ValueIdx
import Idealize.ShloMosaic.PureOps.Ideal.Laws

open scoped BigOperators

noncomputable section

namespace Cert.ReferenceIdeal.Pay

open Cert.ReferenceIdeal Cert.ReferenceIdeal.Gen Idealize.ShloMosaic Idealize.ShloMosaic.ValueIdx

/-! ## The two pooled rows -/

/-- The index (b, c, q) over (b, c) in a reduction over the last axis. -/
theorem lift_last (h : S8x256x784.Reduces [2] S8x256) (b : Fin 8) (c : Fin 256) (q : Fin 784) :
    h.lift (ix2 b c) q = ix3 b c q := by
  funext a
  apply Fin.ext
  match a with
  | ⟨0, _⟩ => rfl
  | ⟨1, _⟩ => rfl
  | ⟨2, _⟩ => rfl

/-- The sum over the last axis, at (b, c), is the sum over the flattened positions. -/
theorem sum_positions (v : FVec Ideal S8x256x784 .f32) (h : S8x256x784.Reduces [2] S8x256) (hφ : FKind.Formats .f32)
    (hacc : (0x00000000#32 : BitVec 32) = 0x00000000#32) (b : Fin 8) (c : Fin 256) :
    multiReduction .add [2] S8x256 v 0x00000000#32 h hφ hacc (ix2 b c) = ∑ q : Fin 784, v (ix3 b c q) := by
  refine (Ideal.multiReduction_add_single v 0x00000000#32 h hφ hacc (ix2 b c)).trans ?_
  show ∑ q : Fin 784, v (h.lift (ix2 b c) q) = _
  exact Finset.sum_congr rfl fun q _ => congrArg v (lift_last h b c q)

/-- The maximum over the last axis, at (b, c), is the maximum over the flattened positions. -/
theorem max_positions (v : FVec Ideal S8x256x784 .f32) (h : S8x256x784.Reduces [2] S8x256) (hφ : FKind.Formats .f32)
    (hacc : (0xFF800000#32 : BitVec 32) = 0xFF800000#32) (b : Fin 8) (c : Fin 256) :
    multiReduction .maximumf [2] S8x256 v 0xFF800000#32 h hφ hacc (ix2 b c)
      = Cert.Spec.maxPool fun q : Fin 784 => v (ix3 b c q) := by
  refine (Ideal.multiReduction_maximumf_single v 0xFF800000#32 h hφ hacc (ix2 b c)).trans ?_
  show (Finset.univ : Finset (Fin 784)).fold max (Ideal.ofBits .f32 0xFF800000#32) (fun q => v (h.lift (ix2 b c) q)) = _
  exact congrArg ((Finset.univ : Finset (Fin 784)).fold max (Ideal.ofBits .f32 0xFF800000#32))
    (funext fun q => congrArg v (lift_last h b c q))

/-! ## The two products -/

abbrev D₁ := dot_S8x256_S256x16_S8x16_1_0_0_1_n_n
abbrev D₂ := dot_S8x16_S16x256_S8x256_1_0_0_1_n_n

theorem lhs₁_0 (j : S8x16.Idx) (k : D₁.contr.Idx) : (D₁.lhsIdx j k 0 : ℕ) = j 0 := by
  simp [DotDims.lhsIdx, D₁, dot_S8x256_S256x16_S8x16_1_0_0_1_n_n]; rfl
theorem lhs₁_1 (j : S8x16.Idx) (k : D₁.contr.Idx) : (D₁.lhsIdx j k 1 : ℕ) = k ⟨0, by decide⟩ := by
  simp [DotDims.lhsIdx, D₁, dot_S8x256_S256x16_S8x16_1_0_0_1_n_n]; rfl
theorem rhs₁_0 (j : S8x16.Idx) (k : D₁.contr.Idx) : (D₁.rhsIdx j k 0 : ℕ) = k ⟨0, by decide⟩ := by
  simp [DotDims.rhsIdx, D₁, dot_S8x256_S256x16_S8x16_1_0_0_1_n_n]; rfl
theorem rhs₁_1 (j : S8x16.Idx) (k : D₁.contr.Idx) : (D₁.rhsIdx j k 1 : ℕ) = j 1 := by
  simp [DotDims.rhsIdx, D₁, dot_S8x256_S256x16_S8x16_1_0_0_1_n_n]; rfl

theorem lhs₂_0 (j : S8x256.Idx) (k : D₂.contr.Idx) : (D₂.lhsIdx j k 0 : ℕ) = j 0 := by
  simp [DotDims.lhsIdx, D₂, dot_S8x16_S16x256_S8x256_1_0_0_1_n_n]; rfl
theorem lhs₂_1 (j : S8x256.Idx) (k : D₂.contr.Idx) : (D₂.lhsIdx j k 1 : ℕ) = k ⟨0, by decide⟩ := by
  simp [DotDims.lhsIdx, D₂, dot_S8x16_S16x256_S8x256_1_0_0_1_n_n]; rfl
theorem rhs₂_0 (j : S8x256.Idx) (k : D₂.contr.Idx) : (D₂.rhsIdx j k 0 : ℕ) = k ⟨0, by decide⟩ := by
  simp [DotDims.rhsIdx, D₂, dot_S8x16_S16x256_S8x256_1_0_0_1_n_n]; rfl
theorem rhs₂_1 (j : S8x256.Idx) (k : D₂.contr.Idx) : (D₂.rhsIdx j k 1 : ℕ) = j 1 := by
  simp [DotDims.rhsIdx, D₂, dot_S8x16_S16x256_S8x256_1_0_0_1_n_n]; rfl

/-- The first product into a zero accumulator, at (b, j): the sum over the 256 channels. -/
theorem product₁_apply (l : FVec Ideal S8x256 .f32) (r : FVec Ideal S256x16 .f32) (b : Fin 8) (j : Fin 16) :
    matmul D₁ none l r (constant S8x16 .f32 0x00000000#32) (ix2 b j) = ∑ k : Fin 256, l (ix2 b k) * r (ix2 k j) := by
  simp only [matmul]
  rw [Ideal.matmul_constant_zero_apply, ← Equiv.sum_comp (contrEquiv1 D₁ 256 rfl rfl).symm]
  refine Finset.sum_congr rfl fun k _ => ?_
  congr 2
  · funext a; apply Fin.ext
    match a with
    | ⟨0, _⟩ => exact lhs₁_0 _ _
    | ⟨1, _⟩ => exact (lhs₁_1 _ _).trans (contrEquiv1_symm_val D₁ 256 rfl rfl k)
  · funext a; apply Fin.ext
    match a with
    | ⟨0, _⟩ => exact (rhs₁_0 _ _).trans (contrEquiv1_symm_val D₁ 256 rfl rfl k)
    | ⟨1, _⟩ => exact rhs₁_1 _ _

/-- The second product into a zero accumulator, at (b, c): the sum over the 16 hidden units. -/
theorem product₂_apply (l : FVec Ideal S8x16 .f32) (r : FVec Ideal S16x256 .f32) (b : Fin 8) (c : Fin 256) :
    matmul D₂ none l r (constant S8x256 .f32 0x00000000#32) (ix2 b c) = ∑ j : Fin 16, l (ix2 b j) * r (ix2 j c) := by
  simp only [matmul]
  rw [Ideal.matmul_constant_zero_apply, ← Equiv.sum_comp (contrEquiv1 D₂ 16 rfl rfl).symm]
  refine Finset.sum_congr rfl fun k _ => ?_
  congr 2
  · funext a; apply Fin.ext
    match a with
    | ⟨0, _⟩ => exact lhs₂_0 _ _
    | ⟨1, _⟩ => exact (lhs₂_1 _ _).trans (contrEquiv1_symm_val D₂ 16 rfl rfl k)
  · funext a; apply Fin.ext
    match a with
    | ⟨0, _⟩ => exact (rhs₂_0 _ _).trans (contrEquiv1_symm_val D₂ 16 rfl rfl k)
    | ⟨1, _⟩ => exact rhs₂_1 _ _

/-! ## The gate laid along the positions -/

/-- The gate matrix laid along every position: at (b, c, q) it is the matrix at (b, c). -/
theorem along_positions (v : FVec Ideal S8x256 .f32) (h₁ : S8x256.ShapeCasts S8x256x1) (h₂ : S8x256x1.Broadcasts S8x256x784)
    (b : Fin 8) (c : Fin 256) (q : Fin 784) :
    broadcastTo S8x256x784 (shapeCast S8x256x1 v h₁) h₂ (ix3 b c q) = v (ix2 b c) := by
  refine (broadcastTo_apply _ h₂ (ix3 b c q) (ix3 b c (0 : Fin 1)) fun a => ?_).trans ?_
  · match a with
    | ⟨0, _⟩ => rfl
    | ⟨1, _⟩ => rfl
    | ⟨2, _⟩ => rfl
  · refine shapeCast_apply v h₁ _ (ix2 b c) ?_
    rw [Shape.rowMajor_val_two, Shape.rowMajor_val_three]
    show b.val * 256 + c.val = (b.val * 256 + c.val) * 1 + 0
    omega

/-! ## The body's result at an element -/

/-- Element (b, c, q) of what the body stores: the tile's element times the gate of (b, c) from the tile's own pooled
    rows. -/
theorem body_apply (x0 : Vec Ideal S8x256x784 .f32) (x1 : Vec Ideal S256x16 .f32) (x2 : Vec Ideal S16x256 .f32)
    (b : Fin 8) (c : Fin 256) (q : Fin 784) :
    k0_pay1 (F := Ideal) x0 x1 x2 (ix3 b c q)
      = Cert.Spec.scaled (x0 (ix3 b c q)) (fun k (q' : Fin 784) => x0 (ix3 b k q'))
          (fun k j => x1 (ix2 k j)) (fun j c' => x2 (ix2 j c')) c := by
  unfold k0_pay1
  simp only [shapeCast_self]
  rw [mulf_apply, along_positions]
  unfold Cert.Spec.scaled
  refine congrArg (x0 (ix3 b c q) * ·) ?_
  show Ideal.logistic _ = _
  unfold Cert.Spec.gate
  refine congrArg Ideal.logistic ?_
  rw [product₂_apply]
  refine Finset.sum_congr rfl fun j _ => ?_
  refine congrArg (· * x2 (ix2 j c)) ?_
  rw [addf_apply, maximumf_apply, maximumf_apply, product₁_apply, product₁_apply]
  refine congrArg₂ (· + ·)
    (congrArg₂ max (Finset.sum_congr rfl fun k _ => congrArg (· * x1 (ix2 k j)) ?_) rfl)
    (congrArg₂ max (Finset.sum_congr rfl fun k _ => congrArg (· * x1 (ix2 k j)) ?_) rfl)
  · rw [mulf_apply, sum_positions]; rfl
  · rw [max_positions]

end Cert.ReferenceIdeal.Pay

end
-- ==== Proof.RValue.lean ====
/-
  The reference's result array, from its eight tiles.

  The reference works on the input flattened to [64, 256, 784] (image, channel, position 28 h + w). Grid point t holds the
  tile of images 8t … 8t + 7: its block of the flattened input has block index (t, 0, 0), and so has its block of the
  output; the two weight matrices are held whole at every point. What point t writes back is therefore its block of ONE
  array: the flattened input times the gate of each (image, channel), the gate pooled over that image's 784 flattened
  positions. The eight blocks cover the 64 images, so after the run the output array is that function. The reshape after
  the region reads position (h, w) at 28 h + w, the reshape before it reads the flattened position q at (q / 28, q % 28),
  and pooling over the flattened positions is pooling over the pairs.
-/
import proofs.«119438_g2000309318738597_pallasbulk_741_4_alg».proof.Proof.Gen.ReferenceIdeal.Frame
import proofs.«119438_g2000309318738597_pallasbulk_741_4_alg».proof.Proof.RPay
import Idealize.ShloMosaic.Lib.Pipeline.Value
import Idealize.ShloMosaic.Lib.StableHlo.Run

set_option maxRecDepth 16384

open scoped BigOperators

noncomputable section

namespace Cert.ReferenceIdeal.Val

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the eight points: the input's and the output's blocks move along the image
    axis with the point, the weights' blocks stay. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Image b of tile t. -/
def row (t : Fin cfg0.N) (b : Fin 8) : Fin 64 :=
  ⟨8 * t.val + b.val, by have hN : cfg0.N = 8 := N_0; have := t.isLt; have := b.isLt; omega⟩

/-- The input tile at point t is the images 8t … 8t + 7 of the flattened input. -/
theorem tile_apply (c : Dev nD) (t : Fin cfg0.N) (b : Fin 8) (k : Fin 256) (q : Fin 784) :
    (iblk m c 0 t : Vec Ideal S8x256x784 .f32) (ix3 b k q)
      = (V m c main_v0 : S64x256x784.Idx → EReal) (ix3 (row t b) k q) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 8 + 1 * b.val = 8 * t.val + b.val; omega
  | ⟨1, _⟩ => show win0_0.index t (1 : Fin 3) * 256 + 1 * k.val = k.val; omega
  | ⟨2, _⟩ => show win0_0.index t (2 : Fin 3) * 784 + 1 * q.val = q.val; omega

/-- The first layer's block at any point is the whole matrix. -/
theorem layer₁_apply (c : Dev nD) (t : Fin cfg0.N) (k : Fin 256) (j : Fin 16) :
    (iblk m c 1 t : Vec Ideal S256x16 .f32) (ix2 k j) = (V m c main_v1 : S256x16.Idx → EReal) (ix2 k j) := by
  obtain ⟨-, -, -, -, -, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 256 + 1 * k.val = k.val; omega
  | ⟨1, _⟩ => show win0_1.index t (1 : Fin 2) * 16 + 1 * j.val = j.val; omega

/-- The second layer's block at any point is the whole matrix. -/
theorem layer₂_apply (c : Dev nD) (t : Fin cfg0.N) (j : Fin 16) (k : Fin 256) :
    (iblk m c 2 t : Vec Ideal S16x256 .f32) (ix2 j k) = (V m c main_v2 : S16x256.Idx → EReal) (ix2 j k) := by
  obtain ⟨-, -, -, -, -, -, -, -, e0, e1⟩ := idx_facts t
  unfold iblk
  rw [View.read_apply]
  show V m c main_v2 _ = V m c main_v2 _
  congr 1
  funext a
  apply Fin.ext
  match a with
  | ⟨0, _⟩ => show win0_2.index t (0 : Fin 2) * 16 + 1 * j.val = j.val; omega
  | ⟨1, _⟩ => show win0_2.index t (1 : Fin 2) * 256 + 1 * k.val = k.val; omega

/-- The output's block at point t sits at the images 8t … 8t + 7. -/
theorem out_emb (t : Fin cfg0.N) (b : Fin 8) (k : Fin 256) (q : Fin 784) :
    (((cfg0.win 3).blk t).view.emb (ix3 b k q) : S64x256x784.Idx) = ix3 (row t b) k q := by
  obtain ⟨-, -, -, e0, e1, e2, -⟩ := idx_facts t
  funext a
  apply Fin.ext
  match a with
  | ⟨0, _⟩ => show win0_3.index t (0 : Fin 3) * 8 + 1 * b.val = 8 * t.val + b.val; omega
  | ⟨1, _⟩ => show win0_3.index t (1 : Fin 3) * 256 + 1 * k.val = k.val; omega
  | ⟨2, _⟩ => show win0_3.index t (2 : Fin 3) * 784 + 1 * q.val = q.val; omega

/-- The output array before the last reshape, as one function of the three arrays the region finds: the flattened
    input xf, the first layer a and the second layer bm. Element (B, c, q) is xf there times the gate of (B, c), the
    gate pooled over image B's own flattened positions. -/
def mid (xf : S64x256x784.Idx → EReal) (a : S256x16.Idx → EReal) (bm : S16x256.Idx → EReal) : S64x256x784.Idx → EReal := fun i =>
  Cert.Spec.scaled (xf i) (fun k (q : Fin 784) => xf (ix3 (i 0 : Fin 64) k q))
    (fun k j => a (ix2 k j)) (fun j c => bm (ix2 j c)) (i 1 : Fin 256)

/-- What point t writes back is block t of that one array. -/
theorem flushed_eq (c : Dev nD) (t : Fin cfg0.N) :
    (dats m 0 c).flushed 3 t = ((cfg0.win 3).blk t).view.read (Elt Ideal) (mid (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S8x256x784) hz3, View.ld_unit_zero (S := S256x16) hz2, View.ld_unit_zero (S := S16x256) hz2]
  funext y
  obtain ⟨b, c', q, rfl⟩ : ∃ (b : Fin 8) (c' : Fin 256) (q : Fin 784), y = ix3 b c' q := ⟨y 0, y 1, y 2, eq_ix3 y⟩
  show k0_pay1 (iblk m c 0 t) (iblk m c 1 t) (iblk m c 2 t) (ix3 b c' q)
    = mid (V m c main_v0) (V m c main_v1) (V m c main_v2) (((cfg0.win 3).blk t).view.emb (ix3 b c' q))
  rw [out_emb]
  refine (Pay.body_apply (iblk m c 0 t) (iblk m c 1 t) (iblk m c 2 t) b c' q).trans ?_
  exact Cert.Spec.scaled_congr c' (tile_apply m c t b c' q) (funext fun k => funext fun q' => tile_apply m c t b k q')
    (funext fun k => funext fun j => layer₁_apply m c t k j) (funext fun j => funext fun k => layer₂_apply m c t j k)

/-- An index of the output array is in point t's block iff each coordinate is in the block's range on its axis. -/
theorem mem_blk (t : Fin cfg0.N) (i : S64x256x784.Idx) :
    i ∈ ((cfg0.win 3).blk t).view.set ↔ ∀ a : Fin 3, win0_3.index t a * S8x256x784.size a ≤ (i a).val
      ∧ (i a).val < win0_3.index t a * S8x256x784.size a + S8x256x784.size a := by
  show i ∈ ((View.whole main_v3).slice (win0_3.rect t)).set ↔ _
  rw [View.set_slice_whole, Rect.mem_set_unit]
  exact Iff.rfl

/-- Every index of the output array is in the block of the point that holds its image. -/
theorem cover (i : S64x256x784.Idx) : ∃ t : Fin cfg0.N, (cfg0.win 3).flush t = true ∧ i ∈ ((cfg0.win 3).blk t).view.set := by
  have hN : cfg0.N = 8 := N_0
  have hi0 : (i 0).val < 64 := (i 0).isLt
  have hi1 : (i 1).val < 256 := (i 1).isLt
  have hi2 : (i 2).val < 784 := (i 2).isLt
  have ht : (i 0).val / 8 < cfg0.N := by omega
  obtain ⟨-, -, -, e0, e1, e2, -⟩ := idx_facts ⟨(i 0).val / 8, ht⟩
  have e0' : win0_3.index ⟨(i 0).val / 8, ht⟩ (0 : Fin 3) = (i 0).val / 8 := e0
  refine ⟨⟨(i 0).val / 8, ht⟩, flush0_3 _, ?_⟩
  rw [mem_blk]
  intro a
  match a with
  | ⟨0, _⟩ => show win0_3.index _ (0 : Fin 3) * 8 ≤ (i 0).val ∧ (i 0).val < win0_3.index _ (0 : Fin 3) * 8 + 8; omega
  | ⟨1, _⟩ => show win0_3.index _ (1 : Fin 3) * 256 ≤ (i 1).val ∧ (i 1).val < win0_3.index _ (1 : Fin 3) * 256 + 256; omega
  | ⟨2, _⟩ => show win0_3.index _ (2 : Fin 3) * 784 ≤ (i 2).val ∧ (i 2).val < win0_3.index _ (2 : Fin 3) * 784 + 784; omega

/-- The output array after the eight points. -/
theorem final (c : Dev nD) : (dats m 0 c).arrAt 3 cfg0.N = mid (V m c main_v0) (V m c main_v1) (V m c main_v2) :=
  (dats m 0 c).arrAt_eq_of_cover 3 _ (fun t _ => flushed_eq m c t) cover

/-! ## Around the region -/

/-- The region finds the input flattened. -/
theorem entry_flat (c : Dev nD) : (V m c main_v0 : S64x256x784.Idx → EReal)
    = shapeCast S64x256x784 (m ((c : Thread nD τ).loc main_arg0)) shapeCasts_S64x256x28x28_S64x256x784 := by
  show StableHlo.after hostOps0 (fun b => m (c, b)) (Proc.devRef .tc main_v0) = _
  after_results
  rfl

/-- Its element (B, k, q) is x (B, k, q / 28, q % 28). -/
theorem entry_x (c : Dev nD) (B : Fin 64) (k : Fin 256) (q : Fin 784) :
    (V m c main_v0 : S64x256x784.Idx → EReal) (ix3 B k q)
      = (m ((c : Thread nD τ).loc main_arg0) : S64x256x28x28.Idx → EReal)
          (ix4 B k (Pool.split (m := 28) (n := 28) q).1 (Pool.split (m := 28) (n := 28) q).2) := by
  rw [entry_flat]
  refine shapeCast_apply _ _ _ (ix4 B k (Pool.split (m := 28) (n := 28) q).1 (Pool.split (m := 28) (n := 28) q).2) ?_
  rw [Shape.rowMajor_val_four, Shape.rowMajor_val_three]
  show ((B.val * 256 + k.val) * 28 + (Pool.split (m := 28) (n := 28) q).1.val) * 28 + (Pool.split (m := 28) (n := 28) q).2.val
    = (B.val * 256 + k.val) * 784 + q.val
  rw [Pool.split_fst_val, Pool.split_snd_val]
  omega

/-- Its element (B, k, 28 h + w) is x (B, k, h, w). -/
theorem entry_x_join (c : Dev nD) (B : Fin 64) (k : Fin 256) (h w : Fin 28) :
    (V m c main_v0 : S64x256x784.Idx → EReal) (ix3 B k (Pool.join (m := 28) (n := 28) (h, w)))
      = (m ((c : Thread nD τ).loc main_arg0) : S64x256x28x28.Idx → EReal) (ix4 B k h w) := by
  rw [entry_flat]
  refine shapeCast_apply _ _ _ (ix4 B k h w) ?_
  rw [Shape.rowMajor_val_four, Shape.rowMajor_val_three]
  show ((B.val * 256 + k.val) * 28 + h.val) * 28 + w.val = (B.val * 256 + k.val) * 784 + (w.val + 28 * h.val)
  omega

/-- It finds the first layer transposed: element (k, j) is w1 (j, k). -/
theorem entry_w₁ (c : Dev nD) (k : Fin 256) (j : Fin 16) :
    (V m c main_v1 : S256x16.Idx → EReal) (ix2 k j) = (m ((c : Thread nD τ).loc main_arg1) : S16x256.Idx → EReal) (ix2 j k) := by
  have e : (V m c main_v1 : S256x16.Idx → EReal)
      = transpose S256x16 [1, 0] (m ((c : Thread nD τ).loc main_arg1)) transposes_S16x256_S256x16_1_0 := by
    show StableHlo.after hostOps0 (fun b => m (c, b)) (Proc.devRef .tc main_v1) = _
    after_results
  rw [e]
  exact transpose_apply _ _ _ _ (ix2 j k) fun b => by
    match b with
    | ⟨0, _⟩ => rfl
    | ⟨1, _⟩ => rfl

/-- And the second layer transposed: element (j, k) is w2 (k, j). -/
theorem entry_w₂ (c : Dev nD) (j : Fin 16) (k : Fin 256) :
    (V m c main_v2 : S16x256.Idx → EReal) (ix2 j k) = (m ((c : Thread nD τ).loc main_arg2) : S256x16.Idx → EReal) (ix2 k j) := by
  have e : (V m c main_v2 : S16x256.Idx → EReal)
      = transpose S16x256 [1, 0] (m ((c : Thread nD τ).loc main_arg2)) transposes_S256x16_S16x256_1_0 := by
    show StableHlo.after hostOps0 (fun b => m (c, b)) (Proc.devRef .tc main_v2) = _
    after_results
  rw [e]
  exact transpose_apply _ _ _ _ (ix2 k j) fun b => by
    match b with
    | ⟨0, _⟩ => rfl
    | ⟨1, _⟩ => rfl

/-- The result buffer after the run: the output array with its positions unflattened. -/
theorem result_eq (c : Dev nD) :
    Pipeline.afterTail₀ cfgs (dats m) 0 (V0 m) [hostOps1] c main_v4
      = Cert.Spec.G (m ((c : Thread nD τ).loc main_arg0)) (m ((c : Thread nD τ).loc main_arg1)) (m ((c : Thread nD τ).loc main_arg2)) := by
  have e : Pipeline.afterTail₀ cfgs (dats m) 0 (V0 m) [hostOps1] c main_v4
      = shapeCast S64x256x28x28 ((dats m 0 c).arrAt 3 cfg0.N) shapeCasts_S64x256x784_S64x256x28x28 := by
    unfold Pipeline.afterTail₀
    show StableHlo.after hostOps1 _ (Proc.devRef .tc main_v4) = _
    after_results
    exact congrArg (fun A => shapeCast S64x256x28x28 A shapeCasts_S64x256x784_S64x256x28x28)
      (Pipeline.withArrays_arr spec0 launch0.win.arr_inj c (V0 m c) (fun w => (dats m 0 c).arrAt w (cfgs 0).N) 3)
  rw [e, final]
  funext i
  obtain ⟨B, c', h, w, rfl⟩ : ∃ (B : Fin 64) (c' : Fin 256) (h w : Fin 28), i = ix4 B c' h w := ⟨i 0, i 1, i 2, i 3, eq_ix4 i⟩
  refine (shapeCast_apply _ _ (ix4 B c' h w) (ix3 B c' (Pool.join (m := 28) (n := 28) (h, w))) ?_).trans ?_
  · rw [Shape.rowMajor_val_four, Shape.rowMajor_val_three]
    show (B.val * 256 + c'.val) * 784 + (w.val + 28 * h.val) = ((B.val * 256 + c'.val) * 28 + h.val) * 28 + w.val
    omega
  · refine (Cert.Spec.scaled_congr c' (entry_x_join m c B c' h w) (funext fun k => funext fun q => entry_x m c B k q)
      (funext fun k => funext fun j => entry_w₁ m c k j) (funext fun j => funext fun k => entry_w₂ m c j k)).trans ?_
    exact Cert.Spec.scaled_flat _
      (fun k p => (m ((c : Thread nD τ).loc main_arg0) : S64x256x28x28.Idx → EReal) (ix4 B k p.1 p.2)) _ _ _

/-- The run, read: the result buffer ends at the channel-attention function of the arguments, which end unchanged. -/
theorem run : θ_run defs (onTc (τ := τ) (main (F := Ideal))) ⟨m, fun _ => 0, ρ⟩ fun r => ∀ c : Dev nD,
      r.2.mem ((c.tc : Thread nD τ).loc main_v4)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Val

end
-- ==== Proof.lean ====
/-
  Channel attention, two ways, equal on the extended reals.

  Both programs gate every channel of every image: x[B, c, h, w] is multiplied by the logistic function of a two-layer map
  of the image's pooled channels, the pooling being the scaled sum and the maximum over the 28 × 28 positions
  (Proof/Spec.lean states the function once).

  The kernel re-lays the input as [28, 28, 64, 256], pools over the two leading axes, stacks the two pooled matrices and
  sends the stack through the first layer in one product, then adds the stack's two halves. The reference flattens the
  input to [64, 256, 784], pools over the last axis and sends each pooled matrix through the first layer by itself.
  Row b of the stacked product is the product of row b of the sums and row b + 8 that of row b of the maxima, so the
  two agree matrix by matrix; the positions (h, w) and the flattened positions 28 h + w are the same set, so the sums
  and the maxima agree (Proof/LibPool.lean). Both programs use the same literals — the factor for 1/784, −∞, zero —, so
  no value of a literal enters, and no law beyond re-indexing a finite sum and a finite maximum is used: the inputs'
  finiteness is not needed.

  Each program's result is read off its frame run: the body's store element by element (Proof/KPay.lean, Proof/RPay.lean),
  the eight tiles' blocks as blocks of one array, the operations before and after the region index by index
  (Proof/KValue.lean, Proof/RValue.lean). The frames are the generated ones; the idealization rewrote nothing.
-/
import proofs.«119438_g2000309318738597_pallasbulk_741_4_alg».proof.Defs
import proofs.«119438_g2000309318738597_pallasbulk_741_4_alg».proof.Proof.Gen.Kernel
import proofs.«119438_g2000309318738597_pallasbulk_741_4_alg».proof.Proof.Gen.Kernel.Skeleton
import proofs.«119438_g2000309318738597_pallasbulk_741_4_alg».proof.Proof.Gen.Kernel.Launch
import proofs.«119438_g2000309318738597_pallasbulk_741_4_alg».proof.Proof.Gen.Kernel.Points
import proofs.«119438_g2000309318738597_pallasbulk_741_4_alg».proof.Proof.Gen.Kernel.Frame
import proofs.«119438_g2000309318738597_pallasbulk_741_4_alg».proof.Proof.Gen.KernelIdeal
import proofs.«119438_g2000309318738597_pallasbulk_741_4_alg».proof.Proof.Gen.KernelIdeal.Skeleton
import proofs.«119438_g2000309318738597_pallasbulk_741_4_alg».proof.Proof.Gen.KernelIdeal.Launch
import proofs.«119438_g2000309318738597_pallasbulk_741_4_alg».proof.Proof.Gen.KernelIdeal.Points
import proofs.«119438_g2000309318738597_pallasbulk_741_4_alg».proof.Proof.Gen.KernelIdeal.Frame
import proofs.«119438_g2000309318738597_pallasbulk_741_4_alg».proof.Proof.Gen.ReferenceIdeal
import proofs.«119438_g2000309318738597_pallasbulk_741_4_alg».proof.Proof.Gen.ReferenceIdeal.Skeleton
import proofs.«119438_g2000309318738597_pallasbulk_741_4_alg».proof.Proof.Gen.ReferenceIdeal.Launch
import proofs.«119438_g2000309318738597_pallasbulk_741_4_alg».proof.Proof.Gen.ReferenceIdeal.Points
import proofs.«119438_g2000309318738597_pallasbulk_741_4_alg».proof.Proof.Gen.ReferenceIdeal.Frame
import proofs.«119438_g2000309318738597_pallasbulk_741_4_alg».proof.Proof.Gen.Pre_finite_inputs
import proofs.«119438_g2000309318738597_pallasbulk_741_4_alg».proof.Proof.KValue
import proofs.«119438_g2000309318738597_pallasbulk_741_4_alg».proof.Proof.RValue
import Idealize.ShloMosaic.Adequacy
import Idealize.ShloMosaic.Init

noncomputable section

namespace Cert.Proof

open Idealize.ShloMosaic Idealize.SL.Sem

/-- Run from memories that agree on the three arguments, the kernel and the reference both end with the result buffer
    at the channel-attention function of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨?_, (h c).2⟩) (Cert.ReferenceIdeal.Val.run m' ρ')
  rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
